-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x117 : Shape := ⟨2, ![1048576, 117]⟩
abbrev S20x117 : Shape := ⟨2, ![20, 117]⟩
abbrev S20 : Shape := ⟨1, ![20]⟩
abbrev S2x20 : Shape := ⟨2, ![2, 20]⟩
abbrev S2 : Shape := ⟨1, ![2]⟩
abbrev S_ : Shape := ⟨0, ![]⟩

class Facts : Prop where
  bcast_S_S1048576x117 : S_.BroadcastsInDim S1048576x117 (![] : Fin 0 → Fin S1048576x117.rank)
  reducesTo_S1048576x117_S_d0_1 : S1048576x117.ReducesTo [0, 1] S_
  h_S_ : 0 < S_.numel
  bcast_S_S20x117 : S_.BroadcastsInDim S20x117 (![] : Fin 0 → Fin S20x117.rank)
  reducesTo_S20x117_S_d0_1 : S20x117.ReducesTo [0, 1] S_
  bcast_S_S20 : S_.BroadcastsInDim S20 (![] : Fin 0 → Fin S20.rank)
  reducesTo_S20_S_d0 : S20.ReducesTo [0] S_
  bcast_S_S2x20 : S_.BroadcastsInDim S2x20 (![] : Fin 0 → Fin S2x20.rank)
  reducesTo_S2x20_S_d0_1 : S2x20.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S2x20 1) : IVec S_ 1 :=
  let main_c_5 : IVec S_ 1 := constantI S_ 1 1#1
  let main_v17 : IVec S_ 1 := (fun x v => Host.reduce IntOp.andi x v reducesTo_S2x20_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S1048576x117 .f32) (main_arg1 : FVec F S20x117 .f32) (main_arg2 : FVec F S20 .f32) (main_arg3 : FVec F S2x20 .f32) (main_arg4 : FVec F S2 .f32) : IVec S_ 1 :=
  let main_v0 : FVec F S1048576x117 .f32 := Host.absf main_arg0
  let main_cst : FVec F S_ .f32 := constant S_ .f32 0x7F800000#32
  let main_v1 : FVec F S1048576x117 .f32 := broadcastInDim S1048576x117 ![] bcast_S_S1048576x117 main_cst
  let main_v2 : IVec S1048576x117 1 := cmpf .olt main_v0 main_v1
  let main_c : IVec S_ 1 := constantI S_ 1 1#1
  let main_v3 : IVec S_ 1 := (fun x v => Host.reduce IntOp.andi x v reducesTo_S1048576x117_S_d0_1 h_S_) main_v2 main_c
  let main_v4 : FVec F S20x117 .f32 := Host.absf main_arg1
  let main_cst_0 : FVec F S_ .f32 := constant S_ .f32 0x7F800000#32
  let main_v5 : FVec F S20x117 .f32 := broadcastInDim S20x117 ![] bcast_S_S20x117 main_cst_0
  let main_v6 : IVec S20x117 1 := cmpf .olt main_v4 main_v5
  let main_c_1 : IVec S_ 1 := constantI S_ 1 1#1
  let main_v7 : IVec S_ 1 := (fun x v => Host.reduce IntOp.andi x v reducesTo_S20x117_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S2x20 .f32 := Host.absf main_arg3
  let main_cst_4 : FVec F S_ .f32 := constant S_ .f32 0x7F800000#32
  let main_v15 : FVec F S2x20 .f32 := broadcastInDim S2x20 ![] bcast_S_S2x20 main_cst_4
  let main_v16 : IVec S2x20 1 := cmpf .olt main_v14 main_v15
  fn_part1 (F := F) main_arg4 main_v13 main_v16
-- ==== Kernel.lean ====
abbrev S1048576x117 : Shape := ⟨2, ![1048576, 117]⟩
abbrev S20x117 : Shape := ⟨2, ![20, 117]⟩
abbrev S20 : Shape := ⟨1, ![20]⟩
abbrev S2x20 : Shape := ⟨2, ![2, 20]⟩
abbrev S2 : Shape := ⟨1, ![2]⟩
abbrev S1x20 : Shape := ⟨2, ![1, 20]⟩
abbrev S1x2 : Shape := ⟨2, ![1, 2]⟩
abbrev S1048576x2 : Shape := ⟨2, ![1048576, 2]⟩
abbrev S32768x117 : Shape := ⟨2, ![32768, 117]⟩
abbrev S32768x2 : Shape := ⟨2, ![32768, 2]⟩
abbrev S117x20 : Shape := ⟨2, ![117, 20]⟩
abbrev S32768x20 : Shape := ⟨2, ![32768, 20]⟩
abbrev S20x2 : Shape := ⟨2, ![20, 2]⟩

abbrev nBuf : Space → Nat
  | .hbm => 8
  | .vmem => 8
  | .smem => 0
  | _ => 0

abbrev bufTy : (tb : Table) → Fin (tcTables nBuf tb) → BufTy
  | .hbm, ⟨0, _⟩ => ⟨S1048576x117, .f32⟩
  | .hbm, ⟨1, _⟩ => ⟨S20x117, .f32⟩
  | .hbm, ⟨2, _⟩ => ⟨S20, .f32⟩
  | .hbm, ⟨3, _⟩ => ⟨S2x20, .f32⟩
  | .hbm, ⟨4, _⟩ => ⟨S2, .f32⟩
  | .hbm, ⟨5, _⟩ => ⟨S1x20, .f32⟩
  | .hbm, ⟨6, _⟩ => ⟨S1x2, .f32⟩
  | .hbm, ⟨7, _⟩ => ⟨S1048576x2, .f32⟩
  | .local _ .vmem, ⟨0, _⟩ => ⟨S32768x117, .f32⟩
  | .local _ .vmem, ⟨1, _⟩ => ⟨S32768x117, .f32⟩
  | .local _ .vmem, ⟨2, _⟩ => ⟨S20x117, .f32⟩
  | .local _ .vmem, ⟨3, _⟩ => ⟨S1x20, .f32⟩
  | .local _ .vmem, ⟨4, _⟩ => ⟨S2x20, .f32⟩
  | .local _ .vmem, ⟨5, _⟩ => ⟨S1x2, .f32⟩
  | .local _ .vmem, ⟨6, _⟩ => ⟨S32768x2, .f32⟩
  | .local _ .vmem, ⟨7, _⟩ => ⟨S32768x2, .f32⟩
  | _, _ => ⟨S1048576x117, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32768x117 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x117 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32768x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S20_S1x20 : S20.ShapeCasts S1x20
  shapeCasts_S2_S1x2 : S2.ShapeCasts S1x2
  inb_S32768x117_S32768x117_0_0 : ∀ a, (![0, 0] : Fin 2 → Nat) a + S32768x117.size a ≤ S32768x117.size a
  h_S32768x117 : 0 < S32768x117.numel
  inb_S20x117_S20x117_0_0 : ∀ a, (![0, 0] : Fin 2 → Nat) a + S20x117.size a ≤ S20x117.size a
  h_S20x117 : 0 < S20x117.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  inb_S2x20_S2x20_0_0 : ∀ a, (![0, 0] : Fin 2 → Nat) a + S2x20.size a ≤ S2x20.size a
  h_S2x20 : 0 < S2x20.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  transposes_S20x117_p1_0_S117x20 : S20x117.Transposes [1, 0] S117x20
  broadcasts_S1x20_S32768x20 : S1x20.Broadcasts S32768x20
  transposes_S2x20_p1_0_S20x2 : S2x20.Transposes [1, 0] S20x2
  broadcasts_S1x2_S32768x2 : S1x2.Broadcasts S32768x2
  inb_S32768x2_S32768x2_0_0 : ∀ a, (![0, 0] : Fin 2 → Nat) a + S32768x2.size a ≤ S32768x2.size a
  h_S32768x2 : 0 < S32768x2.numel
  dot_S32768x117_S117x20_S32768x20_1_0_0_1_n_n_wf : DotDims.WF S32768x117 S117x20 S32768x20 [1] [0] [0] [1] [] []
  dot_S32768x20_S20x2_S32768x2_1_0_0_1_n_n_wf : DotDims.WF S32768x20 S20x2 S32768x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x117.size a ≤ S1048576x117.size a
  hwx0_0 : ∀ i : grid0.Coords, EltTy.bits .f32 = 32 ∨ (Rect.block (s := S1048576x117) S32768x117.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x117.size a ≤ S20x117.size a
  hwx0_1 : ∀ i : grid0.Coords, EltTy.bits .f32 = 32 ∨ (Rect.block (s := S20x117) S20x117.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x20.size a ≤ S2x20.size a
  hwx0_3 : ∀ i : grid0.Coords, EltTy.bits .f32 = 32 ∨ (Rect.block (s := S2x20) S2x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32768x2.size a ≤ S1048576x2.size a
  hwx0_5 : ∀ i : grid0.Coords, EltTy.bits .f32 = 32 ∨ (Rect.block (s := S1048576x2) S32768x2.size (cc0_transform_5 i) (hinb0_5 i)).WholeWords (EltTy.packing .f32)

variable [Facts₀]

def dot_S32768x117_S117x20_S32768x20_1_0_0_1_n_n : DotDims S32768x117 S117x20 S32768x20 where
  lhsContracting := [1]
  rhsContracting := [0]
  lhsNonContracting := [0]
  rhsNonContracting := [1]
  lhsBatch := []
  rhsBatch := []
  wf := dot_S32768x117_S117x20_S32768x20_1_0_0_1_n_n_wf
def dot_S32768x20_S20x2_S32768x2_1_0_0_1_n_n : DotDims S32768x20 S20x2 S32768x2 where
  lhsContracting := [1]
  rhsContracting := [0]
  lhsNonContracting := [0]
  rhsNonContracting := [1]
  lhsBatch := []
  rhsBatch := []
  wf := dot_S32768x20_S20x2_S32768x2_1_0_0_1_n_n_wf

abbrev win0_0 : Pipeline.Window sig grid0 :=
  Pipeline.Window.ofSpec (Memref.whole main_arg0) S32768x117.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20x117.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S32768x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1048576x117 : Shape := ⟨2, ![1048576, 117]⟩
abbrev S20x117 : Shape := ⟨2, ![20, 117]⟩
abbrev S20 : Shape := ⟨1, ![20]⟩
abbrev S2x20 : Shape := ⟨2, ![2, 20]⟩
abbrev S2 : Shape := ⟨1, ![2]⟩
abbrev S1048576x20 : Shape := ⟨2, ![1048576, 20]⟩
abbrev S1x20 : Shape := ⟨2, ![1, 20]⟩
abbrev S_ : Shape := ⟨0, ![]⟩
abbrev S1048576x2 : Shape := ⟨2, ![1048576, 2]⟩
abbrev S1x2 : Shape := ⟨2, ![1, 2]⟩

abbrev nBuf : Space → Nat
  | .hbm => 51
  | .vmem => 0
  | .smem => 0
  | _ => 0

abbrev bufTy : (tb : Table) → Fin (tcTables nBuf tb) → BufTy
  | .hbm, ⟨0, _⟩ => ⟨S1048576x117, .f32⟩
  | .hbm, ⟨1, _⟩ => ⟨S20x117, .f32⟩
  | .hbm, ⟨2, _⟩ => ⟨S20, .f32⟩
  | .hbm, ⟨3, _⟩ => ⟨S2x20, .f32⟩
  | .hbm, ⟨4, _⟩ => ⟨S2, .f32⟩
  | .hbm, ⟨5, _⟩ => ⟨S1048576x20, .f32⟩
  | .hbm, ⟨6, _⟩ => ⟨S1x20, .f32⟩
  | .hbm, ⟨7, _⟩ => ⟨S1048576x20, .f32⟩
  | .hbm, ⟨8, _⟩ => ⟨S1048576x20, .f32⟩
  | .hbm, ⟨9, _⟩ => ⟨S_, .f32⟩
  | .hbm, ⟨10, _⟩ => ⟨S1048576x20, .f32⟩
  | .hbm, ⟨11, _⟩ => ⟨S1048576x20, .f32⟩
  | .hbm, ⟨12, _⟩ => ⟨S_, .f32⟩
  | .hbm, ⟨13, _⟩ => ⟨S1048576x20, .f32⟩
  | .hbm, ⟨14, _⟩ => ⟨S1048576x20, .f32⟩
  | .hbm, ⟨15, _⟩ => ⟨S1048576x20, .i32⟩
  | .hbm, ⟨16, _⟩ => ⟨S_, .i32⟩
  | .hbm, ⟨17, _⟩ => ⟨S1048576x20, .i32⟩
  | .hbm, ⟨18, _⟩ => ⟨S1048576x20, .i32⟩
  | .hbm, ⟨19, _⟩ => ⟨S1048576x20, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1048576x20, .f32⟩
  | .hbm, ⟨24, _⟩ => ⟨S1048576x20, .f32⟩
  | .hbm, ⟨25, _⟩ => ⟨S_, .f32⟩
  | .hbm, ⟨26, _⟩ => ⟨S1048576x20, .f32⟩
  | .hbm, ⟨27, _⟩ => ⟨S1048576x20, .f32⟩
  | .hbm, ⟨28, _⟩ => ⟨S1048576x2, .f32⟩
  | .hbm, ⟨29, _⟩ => ⟨S1x2, .f32⟩
  | .hbm, ⟨30, _⟩ => ⟨S1048576x2, .f32⟩
  | .hbm, ⟨31, _⟩ => ⟨S1048576x2, .f32⟩
  | .hbm, ⟨32, _⟩ => ⟨S_, .f32⟩
  | .hbm, ⟨33, _⟩ => ⟨S1048576x2, .f32⟩
  | .hbm, ⟨34, _⟩ => ⟨S1048576x2, .f32⟩
  | .hbm, ⟨35, _⟩ => ⟨S_, .f32⟩
  | .hbm, ⟨36, _⟩ => ⟨S1048576x2, .f32⟩
  | .hbm, ⟨37, _⟩ => ⟨S1048576x2, .f32⟩
  | .hbm, ⟨38, _⟩ => ⟨S1048576x2, .i32⟩
  | .hbm, ⟨39, _⟩ => ⟨S_, .i32⟩
  | .hbm, ⟨40, _⟩ => ⟨S1048576x2, .i32⟩
  | .hbm, ⟨41, _⟩ => ⟨S1048576x2, .i32⟩
  | .hbm, ⟨42, _⟩ => ⟨S1048576x2, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1048576x2, .f32⟩
  | .hbm, ⟨47, _⟩ => ⟨S1048576x2, .f32⟩
  | .hbm, ⟨48, _⟩ => ⟨S_, .f32⟩
  | .hbm, ⟨49, _⟩ => ⟨S1048576x2, .f32⟩
  | .hbm, ⟨50, _⟩ => ⟨S1048576x2, .f32⟩
  | _, _ => ⟨S1048576x117, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_cst_7 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v25 : Ref sig .tc := ⟨.hbm, 50, rfl⟩

abbrev nD : Nat := 1
abbrev τ : Topo := Topo.v7x

variable {F : FTy → Type} [FloatOps F]

class Facts₀ : Prop where
  bcast_S20_S1x20_1 : S20.BroadcastsInDim S1x20 (![1] : Fin 1 → Fin S1x20.rank)
  bcast_S1x20_S1048576x20_0_1 : S1x20.BroadcastsInDim S1048576x20 (![0, 1] : Fin 2 → Fin S1048576x20.rank)
  bcast_S_S1048576x20 : S_.BroadcastsInDim S1048576x20 (![] : Fin 0 → Fin S1048576x20.rank)
  bcast_S2_S1x2_1 : S2.BroadcastsInDim S1x2 (![1] : Fin 1 → Fin S1x2.rank)
  bcast_S1x2_S1048576x2_0_1 : S1x2.BroadcastsInDim S1048576x2 (![0, 1] : Fin 2 → Fin S1048576x2.rank)
  bcast_S_S1048576x2 : S_.BroadcastsInDim S1048576x2 (![] : Fin 0 → Fin S1048576x2.rank)
  dot_S1048576x117_S20x117_S1048576x20_1_1_0_0_n_n_wf : DotDims.WF S1048576x117 S20x117 S1048576x20 [1] [1] [0] [0] [] []
  dot_S1048576x20_S2x20_S1048576x2_1_1_0_0_n_n_wf : DotDims.WF S1048576x20 S2x20 S1048576x2 [1] [1] [0] [0] [] []

variable [Facts₀]

def dot_S1048576x117_S20x117_S1048576x20_1_1_0_0_n_n : DotDims S1048576x117 S20x117 S1048576x20 where
  lhsContracting := [1]
  rhsContracting := [1]
  lhsNonContracting := [0]
  rhsNonContracting := [0]
  lhsBatch := []
  rhsBatch := []
  wf := dot_S1048576x117_S20x117_S1048576x20_1_1_0_0_n_n_wf
def dot_S1048576x20_S2x20_S1048576x2_1_1_0_0_n_n : DotDims S1048576x20 S2x20 S1048576x2 where
  lhsContracting := [1]
  rhsContracting := [1]
  lhsNonContracting := [0]
  rhsNonContracting := [0]
  lhsBatch := []
  rhsBatch := []
  wf := dot_S1048576x20_S2x20_S1048576x2_1_1_0_0_n_n_wf

class Facts : Prop extends Facts₀ where

variable [Facts]
-- ==== Proof.Spec.lean ====
/-
  The function both programs compute: a two-layer perceptron with fixed-point requantisation, applied to every row of a
  matrix independently.

  A layer sends a row x to k ↦ requant M (Σ_i x_i · W_{k,i} + b_k).  requant multiplies by the scale M, adds the rounding
  offset 2^14, truncates toward zero to a 32-bit integer, shifts that integer right by 15 places keeping the sign, reads the
  result back as a number and clamps it to [0, 255].  The network is a layer 117 → 20 with scale 1565 followed by a layer
  20 → 2 with scale 1342.  Every float literal is kept as its binary word: the same word stands on both sides and is never
  evaluated.
-/
import Idealize.ShloMosaic.PureOps.Ideal
import Idealize.ShloMosaic.Lib.ValueIdx

noncomputable section

namespace Cert.Mlp

open Idealize.ShloMosaic Idealize.ShloMosaic.ValueIdx
open scoped BigOperators

/-- A shift by 15 places is below the width 32, so on every arithmetic unit the arithmetic right shift is the plain signed
    shift: the unit-dependent answer for amounts of the width or more is never consulted. -/
theorem shrsi_15 (u : ArithUnit) (x : BitVec 32) : IntOp.shrsi u x 15#32 = x.sshiftRight' 15#32 :=
  if_pos (by decide)

/-- Requantisation of one pre-activation x at scale M: clamp to [0, 255] of ⌊trunc(x·M + 2^14) / 2^15⌋. -/
def requant (M x : EReal) : EReal :=
  min (Ideal.ofBits .f32 0x437F0000#32)
    (max (Ideal.ofBits .f32 0x00000000#32)
      (FloatOps.sitofp (F := Ideal) .f32
        ((FloatOps.fptosi (F := Ideal) (φ := .f32) 32 (x * M + Ideal.ofBits .f32 0x46800000#32)).sshiftRight' 15#32)))

/-- One layer on one row: unit k sees Σ_i x_i · W_{k,i} + b_k, requantised at scale M. -/
def layer {d h : ℕ} (M : EReal) (W : Fin h → Fin d → EReal) (b : Fin h → EReal) (x : Fin d → EReal) : Fin h → EReal :=
  fun k => requant M ((∑ i : Fin d, x i * W k i) + b k)

/-- The network on one row: 117 inputs, 20 hidden units at scale 1565, 2 outputs at scale 1342. -/
def net (W1 : Fin 20 → Fin 117 → EReal) (b1 : Fin 20 → EReal) (W2 : Fin 2 → Fin 20 → EReal) (b2 : Fin 2 → EReal)
    (x : Fin 117 → EReal) : Fin 2 → EReal :=
  layer (Ideal.ofBits .f32 0x44A7C000#32) W2 b2 (layer (Ideal.ofBits .f32 0x44C3A000#32) W1 b1 x)

/-- The result array: entry (r, q) is output q of the network on row r of X. -/
def mlpArray (X : (⟨2, ![1048576, 117]⟩ : Shape).Idx → EReal) (W1 : (⟨2, ![20, 117]⟩ : Shape).Idx → EReal)
    (b1 : (⟨1, ![20]⟩ : Shape).Idx → EReal) (W2 : (⟨2, ![2, 20]⟩ : Shape).Idx → EReal) (b2 : (⟨1, ![2]⟩ : Shape).Idx → EReal) :
    (⟨2, ![1048576, 2]⟩ : Shape).Idx → EReal :=
  fun j => net (fun k i => W1 (ix2 k i)) (fun k => b1 (ix1 k)) (fun q k => W2 (ix2 q k)) (fun q => b2 (ix1 q))
    (fun i => X (ix2 (j 0) i)) (j 1)

/-- At an index written by its coordinates. -/
theorem mlpArray_ix2 (X : (⟨2, ![1048576, 117]⟩ : Shape).Idx → EReal) (W1 : (⟨2, ![20, 117]⟩ : Shape).Idx → EReal)
    (b1 : (⟨1, ![20]⟩ : Shape).Idx → EReal) (W2 : (⟨2, ![2, 20]⟩ : Shape).Idx → EReal) (b2 : (⟨1, ![2]⟩ : Shape).Idx → EReal)
    (r : Fin 1048576) (q : Fin 2) :
    mlpArray X W1 b1 W2 b2 (ix2 r q)
      = net (fun k i => W1 (ix2 k i)) (fun k => b1 (ix1 k)) (fun q k => W2 (ix2 q k)) (fun q => b2 (ix1 q))
          (fun i => X (ix2 r i)) q := rfl

end Cert.Mlp

end
-- ==== Proof.RefIsSpec.lean ====
/-
  The reference computes the network row by row.

  Read one operation at a time at an index (r, q), the reference's result is the clamp of the shifted integer of
  (Σ_k h_{r,k} · W2_{q,k} + b2_q) · 1342 + 2^14, where h_{r,k} is the same expression one layer down over
  Σ_i X_{r,i} · W1_{k,i} + b1_k at scale 1565.  The two contractions run over the second axis of both operands, so the
  operand indices at (r, k) and i are (r, i) and (k, i); the biases are broadcast along the rows; the host's shift by 15 is
  the plain signed shift.  That is the network of the specification on row r, output q.
-/
import proofs.«165180_j15049565405380_1_alg».proof.Proof.Gen.ReferenceIdeal.Read
import proofs.«165180_j15049565405380_1_alg».proof.Proof.Spec

noncomputable section

namespace Cert.Mlp.Ref

open Cert.ReferenceIdeal Cert.ReferenceIdeal.Read Idealize.ShloMosaic Idealize.ShloMosaic.ValueIdx
open scoped BigOperators

variable (X : (⟨S1048576x117, .f32⟩ : BufTy).Contents (Elt Ideal)) (W1 : (⟨S20x117, .f32⟩ : BufTy).Contents (Elt Ideal))
  (b1 : (⟨S20, .f32⟩ : BufTy).Contents (Elt Ideal)) (W2 : (⟨S2x20, .f32⟩ : BufTy).Contents (Elt Ideal))
  (b2 : (⟨S2, .f32⟩ : BufTy).Contents (Elt Ideal))

/-! ## The operand indices of the two contractions and of the bias broadcasts, by coordinates -/

theorem lidx0 (r : Fin 1048576) (k : Fin 20) (i : Fin 117) : lidx_main_v0 (ix2 r k) i = ix2 r i :=
  funext fun a => Fin.ext (by match a with | ⟨0, _⟩ => rfl | ⟨1, _⟩ => rfl)

theorem ridx0 (r : Fin 1048576) (k : Fin 20) (i : Fin 117) : ridx_main_v0 (ix2 r k) i = ix2 k i :=
  funext fun a => Fin.ext (by match a with | ⟨0, _⟩ => rfl | ⟨1, _⟩ => rfl)

theorem bias1 (r : Fin 1048576) (k : Fin 20) : idx_main_v1 (idx_main_v2 (ix2 r k)) = ix1 k :=
  funext fun a => Fin.ext (by match a with | ⟨0, _⟩ => rfl)

theorem lidx13 (r : Fin 1048576) (q : Fin 2) (k : Fin 20) : lidx_main_v13 (ix2 r q) k = ix2 r k :=
  funext fun a => Fin.ext (by match a with | ⟨0, _⟩ => rfl | ⟨1, _⟩ => rfl)

theorem ridx13 (r : Fin 1048576) (q : Fin 2) (k : Fin 20) : ridx_main_v13 (ix2 r q) k = ix2 q k :=
  funext fun a => Fin.ext (by match a with | ⟨0, _⟩ => rfl | ⟨1, _⟩ => rfl)

theorem bias2 (r : Fin 1048576) (q : Fin 2) : idx_main_v14 (idx_main_v15 (ix2 r q)) = ix1 q :=
  funext fun a => Fin.ext (by match a with | ⟨0, _⟩ => rfl)

/-! ## The hidden activations -/

/-- The clamped first layer at (r, k) is hidden unit k of the first layer on row r. -/
theorem hidden_at (r : Fin 1048576) (k : Fin 20) :
    val_main_v12 (F := Ideal) X W1 b1 (ix2 r k)
      = layer (Ideal.ofBits .f32 0x44C3A000#32) (fun k i => W1 (ix2 k i)) (fun k => b1 (ix1 k)) (fun i => X (ix2 r i)) k := by
  rw [val_main_v12_apply, val_main_call0_v4_apply, val_main_call0_v3_apply, val_main_cst_2_apply,
    val_main_call0_v2_apply, val_main_call0_v1_apply, val_main_call0_v0_apply, val_main_cst_1_apply,
    val_main_v11_apply, val_main_v10_apply, val_main_v9_apply, val_main_c_apply, val_main_v8_apply, val_main_v7_apply,
    val_main_v6_apply, val_main_cst_0_apply, val_main_v5_apply, val_main_v4_apply, val_main_cst_apply,
    val_main_v3_apply, val_main_v2_apply, val_main_v1_apply, val_main_v0_apply, bias1, shrsi_15]
  simp only [lidx0, ridx0]
  rfl

/-! ## The result -/

/-- The reference's result array is the specification's. -/
theorem result_eq : val_main_v25 (F := Ideal) X W1 b1 W2 b2 = mlpArray X W1 b1 W2 b2 := by
  funext j
  obtain ⟨r, q, rfl⟩ : ∃ (r : Fin 1048576) (q : Fin 2), j = ix2 r q := ⟨j 0, j 1, eq_ix2 j⟩
  rw [mlpArray_ix2, val_main_v25_apply, val_main_call1_v4_apply, val_main_call1_v3_apply, val_main_cst_7_apply,
    val_main_call1_v2_apply, val_main_call1_v1_apply, val_main_call1_v0_apply, val_main_cst_6_apply,
    val_main_v24_apply, val_main_v23_apply, val_main_v22_apply, val_main_c_5_apply, val_main_v21_apply, val_main_v20_apply,
    val_main_v19_apply, val_main_cst_4_apply, val_main_v18_apply, val_main_v17_apply, val_main_cst_3_apply,
    val_main_v16_apply, val_main_v15_apply, val_main_v14_apply, val_main_v13_apply, bias2, shrsi_15]
  simp only [lidx13, ridx13, hidden_at]
  rfl

end Cert.Mlp.Ref

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.KernelPayload.lean ====
/-
  What the kernel body stores, read at an entry.

  The body loads a block of 32768 rows of X and the whole of W1, b1 (as a 1 × 20 row), W2 and b2 (as a 1 × 2 row), and stores
  one 32768 × 2 block.  Entry (p, q) of the stored block is output q of the network on row p of the loaded block of X:
  each matrix-unit product into a zero accumulator is the textbook sum over its contraction coordinate, the transposed
  weight at (i, k) is the weight at (k, i), the bias row broadcast over the rows reads its column, every other operation
  acts entry by entry, and the shift by 15 is the plain signed shift.
-/
import proofs.«165180_j15049565405380_1_alg».proof.Proof.Gen.KernelIdeal.Skeleton
import proofs.«165180_j15049565405380_1_alg».proof.Proof.Spec
import proofs.«165180_j15049565405380_1_alg».proof.Proof.LibDot
import Idealize.ShloMosaic.Lib.ValueLayout
import Idealize.ShloMosaic.Lib.Pipeline.Value
import Idealize.ShloMosaic.PureOps.Ideal.Laws

noncomputable section

namespace Cert.Mlp.Body

open Cert.KernelIdeal Cert.KernelIdeal.Gen Idealize.ShloMosaic Idealize.ShloMosaic.ValueIdx
open scoped BigOperators

/-! ## The two products' operand indices

Both contract the left operand's second axis with the right operand's first and have no batch axis. -/

theorem first_l0 (j : S32768x20.Idx) (c : dot_S32768x117_S117x20_S32768x20_1_0_0_1_n_n.contr.Idx) :
    (dot_S32768x117_S117x20_S32768x20_1_0_0_1_n_n.lhsIdx j c 0).val = (j 0).val := by
  unfold DotDims.lhsIdx
  rw [dif_neg (show ¬(0 : Fin S32768x117.rank) ∈ dot_S32768x117_S117x20_S32768x20_1_0_0_1_n_n.lhsBatch by decide),
    dif_pos (show (0 : Fin S32768x117.rank) ∈ dot_S32768x117_S117x20_S32768x20_1_0_0_1_n_n.lhsNonContracting by decide)]
  rfl

theorem first_l1 (j : S32768x20.Idx) (c : dot_S32768x117_S117x20_S32768x20_1_0_0_1_n_n.contr.Idx) :
    (dot_S32768x117_S117x20_S32768x20_1_0_0_1_n_n.lhsIdx j c 1).val = (c ⟨0, by decide⟩).val :=
  dot_S32768x117_S117x20_S32768x20_1_0_0_1_n_n.lhsIdx_val_of_single rfl j c

theorem first_r0 (j : S32768x20.Idx) (c : dot_S32768x117_S117x20_S32768x20_1_0_0_1_n_n.contr.Idx) :
    (dot_S32768x117_S117x20_S32768x20_1_0_0_1_n_n.rhsIdx j c 0).val = (c ⟨0, by decide⟩).val :=
  dot_S32768x117_S117x20_S32768x20_1_0_0_1_n_n.rhsIdx_val_of_single rfl j c

theorem first_r1 (j : S32768x20.Idx) (c : dot_S32768x117_S117x20_S32768x20_1_0_0_1_n_n.contr.Idx) :
    (dot_S32768x117_S117x20_S32768x20_1_0_0_1_n_n.rhsIdx j c 1).val = (j 1).val := by
  unfold DotDims.rhsIdx
  rw [dif_neg (show ¬(1 : Fin S117x20.rank) ∈ dot_S32768x117_S117x20_S32768x20_1_0_0_1_n_n.rhsBatch by decide),
    dif_pos (show (1 : Fin S117x20.rank) ∈ dot_S32768x117_S117x20_S32768x20_1_0_0_1_n_n.rhsNonContracting by decide)]
  rfl

theorem second_l0 (j : S32768x2.Idx) (c : dot_S32768x20_S20x2_S32768x2_1_0_0_1_n_n.contr.Idx) :
    (dot_S32768x20_S20x2_S32768x2_1_0_0_1_n_n.lhsIdx j c 0).val = (j 0).val := by
  unfold DotDims.lhsIdx
  rw [dif_neg (show ¬(0 : Fin S32768x20.rank) ∈ dot_S32768x20_S20x2_S32768x2_1_0_0_1_n_n.lhsBatch by decide),
    dif_pos (show (0 : Fin S32768x20.rank) ∈ dot_S32768x20_S20x2_S32768x2_1_0_0_1_n_n.lhsNonContracting by decide)]
  rfl

theorem second_l1 (j : S32768x2.Idx) (c : dot_S32768x20_S20x2_S32768x2_1_0_0_1_n_n.contr.Idx) :
    (dot_S32768x20_S20x2_S32768x2_1_0_0_1_n_n.lhsIdx j c 1).val = (c ⟨0, by decide⟩).val :=
  dot_S32768x20_S20x2_S32768x2_1_0_0_1_n_n.lhsIdx_val_of_single rfl j c

theorem second_r0 (j : S32768x2.Idx) (c : dot_S32768x20_S20x2_S32768x2_1_0_0_1_n_n.contr.Idx) :
    (dot_S32768x20_S20x2_S32768x2_1_0_0_1_n_n.rhsIdx j c 0).val = (c ⟨0, by decide⟩).val :=
  dot_S32768x20_S20x2_S32768x2_1_0_0_1_n_n.rhsIdx_val_of_single rfl j c

theorem second_r1 (j : S32768x2.Idx) (c : dot_S32768x20_S20x2_S32768x2_1_0_0_1_n_n.contr.Idx) :
    (dot_S32768x20_S20x2_S32768x2_1_0_0_1_n_n.rhsIdx j c 1).val = (j 1).val := by
  unfold DotDims.rhsIdx
  rw [dif_neg (show ¬(1 : Fin S20x2.rank) ∈ dot_S32768x20_S20x2_S32768x2_1_0_0_1_n_n.rhsBatch by decide),
    dif_pos (show (1 : Fin S20x2.rank) ∈ dot_S32768x20_S20x2_S32768x2_1_0_0_1_n_n.rhsNonContracting by decide)]
  rfl

/-- The first product, of x with the transpose of w, into its zero accumulator, at entry (p, k): Σ_i x (p, i) · w (k, i) —
    the transposed weight at (i, k) is the weight at (k, i). -/
theorem first_product_at (x : FVec Ideal S32768x117 .f32) (w : FVec Ideal S20x117 .f32) (p : Fin 32768) (k : Fin 20) :
    matmul dot_S32768x117_S117x20_S32768x20_1_0_0_1_n_n none x
        (transpose S117x20 [1, 0] w transposes_S20x117_p1_0_S117x20) (constant (F := Ideal) S32768x20 .f32 0x00000000#32) (ix2 p k)
      = ∑ i : Fin 117, x (ix2 p i) * w (ix2 k i) :=
  (Cert.LibDot.matmul_zero_apply dot_S32768x117_S117x20_S32768x20_1_0_0_1_n_n rfl rfl first_l0 first_l1 first_r0 first_r1
    none x (transpose S117x20 [1, 0] w transposes_S20x117_p1_0_S117x20) p k).trans
    (Finset.sum_congr rfl fun i _ =>
      congrArg (x (ix2 p i) * ·) (transpose_ix2_apply w transposes_S20x117_p1_0_S117x20 i k))

/-- The second product, of x with the transpose of w, into its zero accumulator, at entry (p, q): Σ_k x (p, k) · w (q, k). -/
theorem second_product_at (x : FVec Ideal S32768x20 .f32) (w : FVec Ideal S2x20 .f32) (p : Fin 32768) (q : Fin 2) :
    matmul dot_S32768x20_S20x2_S32768x2_1_0_0_1_n_n none x
        (transpose S20x2 [1, 0] w transposes_S2x20_p1_0_S20x2) (constant (F := Ideal) S32768x2 .f32 0x00000000#32) (ix2 p q)
      = ∑ k : Fin 20, x (ix2 p k) * w (ix2 q k) :=
  (Cert.LibDot.matmul_zero_apply dot_S32768x20_S20x2_S32768x2_1_0_0_1_n_n rfl rfl second_l0 second_l1 second_r0 second_r1
    none x (transpose S20x2 [1, 0] w transposes_S2x20_p1_0_S20x2) p q).trans
    (Finset.sum_congr rfl fun k _ =>
      congrArg (x (ix2 p k) * ·) (transpose_ix2_apply w transposes_S2x20_p1_0_S20x2 k q))

/-! ## The hidden activations of a block -/

/-- The first layer as the body computes it from its loaded blocks: the clamped, requantised 32768 × 20 activations. -/
def hiddenBlock (x0 : FVec Ideal S32768x117 .f32) (x1 : FVec Ideal S20x117 .f32) (x2 : FVec Ideal S1x20 .f32) :
    FVec Ideal S32768x20 .f32 :=
  minimumf (broadcast S32768x20 (Scalar.ofBits (F := Ideal) .f32 0x437F0000#32))
    (maximumf (broadcast S32768x20 (Scalar.ofBits (F := Ideal) .f32 0x00000000#32))
      (sitofp .f32 (shrsi (fptosi 32
        (addf (mulf (addf
            (matmul dot_S32768x117_S117x20_S32768x20_1_0_0_1_n_n none x0
              (transpose S117x20 [1, 0] x1 transposes_S20x117_p1_0_S117x20) (constant (F := Ideal) S32768x20 .f32 0x00000000#32))
            (broadcastTo S32768x20 (shapeCast S1x20 x2 shapeCasts_S1x20_S1x20) broadcasts_S1x20_S32768x20))
          (broadcast S32768x20 (Scalar.ofBits (F := Ideal) .f32 0x44C3A000#32)))
          (broadcast S32768x20 (Scalar.ofBits (F := Ideal) .f32 0x46800000#32))))
        (broadcast S32768x20 15#32))))

/-- Entry (p, k) of the hidden activations is hidden unit k of the first layer on row p of the block. -/
theorem hiddenBlock_at (x0 : FVec Ideal S32768x117 .f32) (x1 : FVec Ideal S20x117 .f32) (x2 : FVec Ideal S1x20 .f32)
    (p : Fin 32768) (k : Fin 20) :
    hiddenBlock x0 x1 x2 (ix2 p k)
      = layer (Ideal.ofBits .f32 0x44C3A000#32) (fun k i => x1 (ix2 k i)) (fun k => x2 (ix2 (0 : Fin 1) k))
          (fun i => x0 (ix2 p i)) k := by
  show min (Ideal.ofBits .f32 0x437F0000#32) (max (Ideal.ofBits .f32 0x00000000#32)
    (FloatOps.sitofp (F := Ideal) .f32 (IntOp.shrsi .vector (FloatOps.fptosi (F := Ideal) (φ := .f32) 32
      ((matmul dot_S32768x117_S117x20_S32768x20_1_0_0_1_n_n none x0
            (transpose S117x20 [1, 0] x1 transposes_S20x117_p1_0_S117x20) (constant (F := Ideal) S32768x20 .f32 0x00000000#32) (ix2 p k)
          + broadcastTo S32768x20 (shapeCast S1x20 x2 shapeCasts_S1x20_S1x20) broadcasts_S1x20_S32768x20 (ix2 p k))
        * Ideal.ofBits .f32 0x44C3A000#32 + Ideal.ofBits .f32 0x46800000#32)) 15#32))) = _
  rw [first_product_at, broadcastTo_1b_ab_apply, shapeCast_self, shrsi_15]
  rfl

/-! ## The stored block -/

/-- The body's stored value is the second layer over the hidden activations. -/
theorem stored_eq (x0 : FVec Ideal S32768x117 .f32) (x1 : FVec Ideal S20x117 .f32) (x2 : FVec Ideal S1x20 .f32)
    (x3 : FVec Ideal S2x20 .f32) (x4 : FVec Ideal S1x2 .f32) :
    k0_pay1 (F := Ideal) (Scalar.ofBits .f32 0x437F0000#32) (k0_pay2 x0 x1 x2 x3 x4)
      = minimumf (broadcast S32768x2 (Scalar.ofBits (F := Ideal) .f32 0x437F0000#32))
          (maximumf (broadcast S32768x2 (Scalar.ofBits (F := Ideal) .f32 0x00000000#32))
            (sitofp .f32 (shrsi (fptosi 32
              (addf (mulf (addf
                  (matmul dot_S32768x20_S20x2_S32768x2_1_0_0_1_n_n none (hiddenBlock x0 x1 x2)
                    (transpose S20x2 [1, 0] x3 transposes_S2x20_p1_0_S20x2) (constant (F := Ideal) S32768x2 .f32 0x00000000#32))
                  (broadcastTo S32768x2 (shapeCast S1x2 x4 shapeCasts_S1x2_S1x2) broadcasts_S1x2_S32768x2))
                (broadcast S32768x2 (Scalar.ofBits (F := Ideal) .f32 0x44A7C000#32)))
                (broadcast S32768x2 (Scalar.ofBits (F := Ideal) .f32 0x46800000#32))))
              (broadcast S32768x2 15#32)))) := rfl

/-- Entry (p, q) of the stored block is output q of the network on row p of the loaded block of X. -/
theorem stored_at (x0 : FVec Ideal S32768x117 .f32) (x1 : FVec Ideal S20x117 .f32) (x2 : FVec Ideal S1x20 .f32)
    (x3 : FVec Ideal S2x20 .f32) (x4 : FVec Ideal S1x2 .f32) (p : Fin 32768) (q : Fin 2) :
    k0_pay1 (F := Ideal) (Scalar.ofBits .f32 0x437F0000#32) (k0_pay2 x0 x1 x2 x3 x4) (ix2 p q)
      = net (fun k i => x1 (ix2 k i)) (fun k => x2 (ix2 (0 : Fin 1) k)) (fun q k => x3 (ix2 q k))
          (fun q => x4 (ix2 (0 : Fin 1) q)) (fun i => x0 (ix2 p i)) q := by
  rw [stored_eq]
  show min (Ideal.ofBits .f32 0x437F0000#32) (max (Ideal.ofBits .f32 0x00000000#32)
    (FloatOps.sitofp (F := Ideal) .f32 (IntOp.shrsi .vector (FloatOps.fptosi (F := Ideal) (φ := .f32) 32
      ((matmul dot_S32768x20_S20x2_S32768x2_1_0_0_1_n_n none (hiddenBlock x0 x1 x2)
            (transpose S20x2 [1, 0] x3 transposes_S2x20_p1_0_S20x2) (constant (F := Ideal) S32768x2 .f32 0x00000000#32) (ix2 p q)
          + broadcastTo S32768x2 (shapeCast S1x2 x4 shapeCasts_S1x2_S1x2) broadcasts_S1x2_S32768x2 (ix2 p q))
        * Ideal.ofBits .f32 0x44A7C000#32 + Ideal.ofBits .f32 0x46800000#32)) 15#32))) = _
  rw [second_product_at, broadcastTo_1b_ab_apply, shapeCast_self, shrsi_15]
  simp only [hiddenBlock_at]
  rfl

end Cert.Mlp.Body

end
-- ==== Proof.KernelArray.lean ====
/-
  From the blocks the kernel writes to the whole result array.

  The grid has 32 points.  Point t stages rows 32768·t … 32768·t + 32767 of X, the whole of W1, W2 and the two bias rows
  (b1 and b2 reshaped by the host to 1 × 20 and 1 × 2 before the kernel is launched), and writes back rows
  32768·t … 32768·t + 32767 of the 1048576 × 2 result.  Entry (p, q) of the block it writes is output q of the network on
  row p of its block of X, which is row 32768·t + p of X: so the block is the restriction of ONE whole-array function, the
  network applied to every row of X.  The 32 blocks tile the result (row r lies in block r / 32768), so after the run the
  result array is that function, and the arguments are as launched.
-/
import proofs.«165180_j15049565405380_1_alg».proof.Proof.Gen.KernelIdeal.Value
import proofs.«165180_j15049565405380_1_alg».proof.Proof.KernelPayload
import Idealize.ShloMosaic.Lib.StableHlo.Run
import Idealize.ShloMosaic.Lib.ValueLayout

noncomputable section

namespace Cert.Mlp.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The result array: the network on every row of X, from the argument arrays as launched. -/
def result (c : Dev nD) : S1048576x2.Idx → EReal :=
  mlpArray (m ((c : Thread nD τ).loc main_arg0)) (m ((c : Thread nD τ).loc main_arg1)) (m ((c : Thread nD τ).loc main_arg2)) (m ((c : Thread nD τ).loc main_arg3)) (m ((c : Thread nD τ).loc main_arg4))

/-! ## The index maps, decided over the grid -/

theorem offsets_zero : (![0, 0] : Fin 2 → Nat) = fun _ => 0 := funext fun a => by fin_cases a <;> rfl

/-- X's window and the result's move together along the rows, one block per point; every other window stays at its one
    block; the result's block index at point t is (t, 0). -/
theorem index_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every one of the 32 row blocks is some point's. -/
theorem index_onto : ∀ b : Fin 32, ∃ t : Fin cfg0.N, win0_5.index t = ![b.val, 0] :=
  (by decide +kernel : ∀ b : Fin 32, ∃ t : Fin grid0.N, win0_5.index t = ![b.val, 0])

/-- Row p of point t's block is a row of the array. -/
theorem row_lt (t : Fin cfg0.N) (p : Fin 32768) : t.val * 32768 + p.val < 1048576 := by
  have ht : t.val < 32 := lt_of_lt_of_eq t.isLt N_0
  have hp := p.isLt
  omega

/-! ## The bias rows as the region finds them: the host's reshapes -/

theorem bias1_entry (c : Dev nD) :
    (V m c main_v0 : S1x20.Idx → EReal) = shapeCast S1x20 (m ((c : Thread nD τ).loc main_arg2)) shapeCasts_S20_S1x20 := by
  dsimp only [V, hostOps0]; after_results; rfl

theorem bias2_entry (c : Dev nD) :
    (V m c main_v1 : S1x2.Idx → EReal) = shapeCast S1x2 (m ((c : Thread nD τ).loc main_arg4)) shapeCasts_S2_S1x2 := by
  dsimp only [V, hostOps0]; after_results; rfl

/-! ## Each input block, read where the output block's entry says -/

/-- Entry (p, i) of point t's block of X is X at row 32768·t + p. -/
theorem x_block (c : Dev nD) (t : Fin cfg0.N) (p : Fin 32768) (i : Fin 117) :
    iblk m c 0 t (ix2 p i) = m ((c : Thread nD τ).loc main_arg0) (ix2 (⟨t.val * 32768 + p.val, row_lt t p⟩ : Fin 1048576) i) := by
  obtain ⟨e00, e01, -, -, -, -, -, -, -, -, e50, -⟩ := index_facts t
  show V m c main_arg0 (((cfg0.win 0).blk t).view.emb (ix2 p i)) = _
  rw [V_main_arg0]
  refine congrArg (m ((c : Thread nD τ).loc main_arg0)) (funext fun a => Fin.ext ?_)
  match a with
  | ⟨0, _⟩ => show win0_0.index t (0 : Fin 2) * 32768 + 1 * p.val = t.val * 32768 + p.val; omega
  | ⟨1, _⟩ => show win0_0.index t (1 : Fin 2) * 117 + 1 * i.val = i.val; omega

/-- W1's one block is W1. -/
theorem w1_block (c : Dev nD) (t : Fin cfg0.N) (k : Fin 20) (i : Fin 117) :
    iblk m c 1 t (ix2 k i) = m ((c : Thread nD τ).loc main_arg1) (ix2 k i) := by
  obtain ⟨-, -, e10, e11, -⟩ := index_facts t
  show V m c main_arg1 (((cfg0.win 1).blk t).view.emb (ix2 k i)) = _
  rw [V_main_arg1]
  refine congrArg (m ((c : Thread nD τ).loc main_arg1)) (funext fun a => Fin.ext ?_)
  match a with
  | ⟨0, _⟩ => show win0_1.index t (0 : Fin 2) * 20 + 1 * k.val = k.val; omega
  | ⟨1, _⟩ => show win0_1.index t (1 : Fin 2) * 117 + 1 * i.val = i.val; omega

/-- The staged 1 × 20 bias row at column k is b1 at k. -/
theorem b1_block (c : Dev nD) (t : Fin cfg0.N) (k : Fin 20) :
    iblk m c 2 t (ix2 (0 : Fin 1) k) = m ((c : Thread nD τ).loc main_arg2) (ix1 k) := by
  obtain ⟨-, -, -, -, e20, e21, -⟩ := index_facts t
  show V m c main_v0 (((cfg0.win 2).blk t).view.emb (ix2 (0 : Fin 1) k)) = _
  have h : ((cfg0.win 2).blk t).view.emb (ix2 (0 : Fin 1) k) = (ix2 (0 : Fin 1) k : S1x20.Idx) :=
    funext fun a => Fin.ext (by
      match a with
      | ⟨0, _⟩ => show win0_2.index t (0 : Fin 2) * 1 + 1 * 0 = 0; omega
      | ⟨1, _⟩ => show win0_2.index t (1 : Fin 2) * 20 + 1 * k.val = k.val; omega)
  rw [h, bias1_entry]
  exact shapeCast_a_1a_apply _ shapeCasts_S20_S1x20 0 k

/-- W2's one block is W2. -/
theorem w2_block (c : Dev nD) (t : Fin cfg0.N) (q : Fin 2) (k : Fin 20) :
    iblk m c 3 t (ix2 q k) = m ((c : Thread nD τ).loc main_arg3) (ix2 q k) := by
  obtain ⟨-, -, -, -, -, -, e30, e31, -⟩ := index_facts t
  show V m c main_arg3 (((cfg0.win 3).blk t).view.emb (ix2 q k)) = _
  rw [V_main_arg3]
  refine congrArg (m ((c : Thread nD τ).loc main_arg3)) (funext fun a => Fin.ext ?_)
  match a with
  | ⟨0, _⟩ => show win0_3.index t (0 : Fin 2) * 2 + 1 * q.val = q.val; omega
  | ⟨1, _⟩ => show win0_3.index t (1 : Fin 2) * 20 + 1 * k.val = k.val; omega

/-- The staged 1 × 2 bias row at column q is b2 at q. -/
theorem b2_block (c : Dev nD) (t : Fin cfg0.N) (q : Fin 2) :
    iblk m c 4 t (ix2 (0 : Fin 1) q) = m ((c : Thread nD τ).loc main_arg4) (ix1 q) := by
  obtain ⟨-, -, -, -, -, -, -, -, e40, e41, -⟩ := index_facts t
  show V m c main_v1 (((cfg0.win 4).blk t).view.emb (ix2 (0 : Fin 1) q)) = _
  have h : ((cfg0.win 4).blk t).view.emb (ix2 (0 : Fin 1) q) = (ix2 (0 : Fin 1) q : S1x2.Idx) :=
    funext fun a => Fin.ext (by
      match a with
      | ⟨0, _⟩ => show win0_4.index t (0 : Fin 2) * 1 + 1 * 0 = 0; omega
      | ⟨1, _⟩ => show win0_4.index t (1 : Fin 2) * 2 + 1 * q.val = q.val; omega)
  rw [h, bias2_entry]
  exact shapeCast_a_1a_apply _ shapeCasts_S2_S1x2 0 q

/-- Entry (p, q) of point t's output block sits at (32768·t + p, q) of the result. -/
theorem out_index (t : Fin cfg0.N) (p : Fin 32768) (q : Fin 2) :
    ((cfg0.win 5).blk t).view.emb (ix2 p q) = (ix2 (⟨t.val * 32768 + p.val, row_lt t p⟩ : Fin 1048576) q : S1048576x2.Idx) := by
  obtain ⟨-, -, -, -, -, -, -, -, -, -, e50, e51⟩ := index_facts t
  refine funext fun a => Fin.ext ?_
  match a with
  | ⟨0, _⟩ => show win0_5.index t (0 : Fin 2) * 32768 + 1 * p.val = t.val * 32768 + p.val; omega
  | ⟨1, _⟩ => show win0_5.index t (1 : Fin 2) * 2 + 1 * q.val = q.val; omega

/-! ## What a point writes back -/

/-- Point t writes back block t of the result array. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero offsets_zero]
  simp only [View.ld_unit_zero (S := S32768x117) offsets_zero, View.ld_unit_zero (S := S20x117) offsets_zero,
    View.ld_unit_zero (S := S1x20) offsets_zero, View.ld_unit_zero (S := S2x20) offsets_zero,
    View.ld_unit_zero (S := S1x2) offsets_zero]
  refine funext fun (y : S32768x2.Idx) => ?_
  obtain ⟨p, q, rfl⟩ : ∃ (p : Fin 32768) (q : Fin 2), y = ix2 p q := ⟨y 0, y 1, eq_ix2 y⟩
  show k0_pay1 (F := Ideal) (Scalar.ofBits .f32 0x437F0000#32)
      (k0_pay2 (iblk m c 0 t) (iblk m c 1 t) (iblk m c 2 t) (iblk m c 3 t) (iblk m c 4 t)) (ix2 p q)
    = result m c (((cfg0.win 5).blk t).view.emb (ix2 p q))
  refine (Cert.Mlp.Body.stored_at (iblk m c 0 t) (iblk m c 1 t) (iblk m c 2 t) (iblk m c 3 t) (iblk m c 4 t) p q).trans ?_
  rw [out_index t p q]
  have e0 : (fun i : Fin 117 => iblk m c 0 t (ix2 p i)) = fun i => m ((c : Thread nD τ).loc main_arg0) (ix2 (⟨t.val * 32768 + p.val, row_lt t p⟩ : Fin 1048576) i) :=
    funext fun i => x_block m c t p i
  have e1 : (fun (k : Fin 20) (i : Fin 117) => iblk m c 1 t (ix2 k i)) = fun k i => m ((c : Thread nD τ).loc main_arg1) (ix2 k i) :=
    funext fun k => funext fun i => w1_block m c t k i
  have e2 : (fun k : Fin 20 => iblk m c 2 t (ix2 (0 : Fin 1) k)) = fun k => m ((c : Thread nD τ).loc main_arg2) (ix1 k) :=
    funext fun k => b1_block m c t k
  have e3 : (fun (q : Fin 2) (k : Fin 20) => iblk m c 3 t (ix2 q k)) = fun q k => m ((c : Thread nD τ).loc main_arg3) (ix2 q k) :=
    funext fun q => funext fun k => w2_block m c t q k
  have e4 : (fun q : Fin 2 => iblk m c 4 t (ix2 (0 : Fin 1) q)) = fun q => m ((c : Thread nD τ).loc main_arg4) (ix1 q) :=
    funext fun q => b2_block m c t q
  rw [e0, e1, e2, e3, e4]
  rfl

/-! ## The blocks tile the result -/

/-- An index of the result is in point t's block iff each coordinate is in the block's range on its axis. -/
theorem mem_blk (t : Fin cfg0.N) (i : S1048576x2.Idx) :
    i ∈ ((cfg0.win 5).blk t).view.set ↔ ∀ a : Fin 2, win0_5.index t a * S32768x2.size a ≤ (i a).val
      ∧ (i a).val < win0_5.index t a * S32768x2.size a + S32768x2.size a := by
  show i ∈ ((View.whole main_v2).slice (win0_5.rect t)).set ↔ _
  rw [View.set_slice_whole, Rect.mem_set_unit]
  exact Iff.rfl

/-- Every index of the result is in some writing point's block: row r is in block r / 32768. -/
theorem covered (i : S1048576x2.Idx) :
    ∃ t : Fin cfg0.N, (cfg0.win 5).flush t = true ∧ i ∈ ((cfg0.win 5).blk t).view.set := by
  have hi0 : (i 0).val < 1048576 := (i 0).isLt
  have hi1 : (i 1).val < 2 := (i 1).isLt
  obtain ⟨t, ht⟩ := index_onto ⟨(i 0).val / 32768, by omega⟩
  have q0 : win0_5.index t (0 : Fin 2) = (i 0).val / 32768 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 32768 ≤ (i 0).val ∧ (i 0).val < win0_5.index t (0 : Fin 2) * 32768 + 32768
    omega
  | ⟨1, _⟩ =>
    show win0_5.index t (1 : Fin 2) * 2 ≤ (i 1).val ∧ (i 1).val < win0_5.index t (1 : Fin 2) * 2 + 2
    omega

/-! ## The array after the run, and the run -/

/-- After the 32 write-backs the result array is the network on every row of X. -/
theorem final (c : Dev nD) : (dats m 0 c).arrAt 5 cfg0.N = result m c :=
  (dats m 0 c).arrAt_eq_of_cover 5 (result m c) (fun t _ => flushed_eq m c t) covered

/-- The kernel's run: every weakly fair execution terminates with the result array at the network of the arguments, and the
    arguments unchanged. -/
theorem run : θ_run (defs (F := Ideal)) (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Mlp.Kernel

end
-- ==== Proof.lean ====
/-
  A two-layer perceptron with fixed-point requantisation over a batch of 1048576 rows: the kernel against its reference.

  Both programs compute, for every row x of X, the two outputs
      out_q = requant_1342 (Σ_k h_k · W2_{q,k} + b2_q),   h_k = requant_1565 (Σ_i x_i · W1_{k,i} + b1_k),
  where requant_M (y) clamps to [0, 255] the integer trunc(y·M + 2^14) shifted right by 15 places (Proof/Spec.lean).

  The reference does it with two whole-array contractions and entry-by-entry operations (Proof/RefIsSpec.lean reads its
  run one operation at a time).  The kernel cuts the rows into 32 blocks of 32768, computes each block with two
  matrix-unit products against the transposed weights (Proof/KernelPayload.lean reads the stored block at an entry) and
  writes the blocks back side by side, which tiles the result (Proof/KernelArray.lean).  On the extended reals the two are
  the same function of the arguments, entry by entry: a sum is a sum whatever unit adds it up, a change of tiling changes
  nothing, both sides truncate to 32-bit integers, and a shift by 15 places is the same signed shift on every unit.  No law
  used needs the inputs to be finite, so the precondition is never opened.  The kernel's idealisation rewrote no
  operation, so there is nothing to preserve.
-/
import proofs.«165180_j15049565405380_1_alg».proof.Defs
import proofs.«165180_j15049565405380_1_alg».proof.Proof.Gen.Kernel
import proofs.«165180_j15049565405380_1_alg».proof.Proof.Gen.Kernel.Skeleton
import proofs.«165180_j15049565405380_1_alg».proof.Proof.Gen.Kernel.Launch
import proofs.«165180_j15049565405380_1_alg».proof.Proof.Gen.Kernel.Points
import proofs.«165180_j15049565405380_1_alg».proof.Proof.Gen.Kernel.Frame
import proofs.«165180_j15049565405380_1_alg».proof.Proof.Gen.KernelIdeal
import proofs.«165180_j15049565405380_1_alg».proof.Proof.Gen.KernelIdeal.Skeleton
import proofs.«165180_j15049565405380_1_alg».proof.Proof.Gen.KernelIdeal.Launch
import proofs.«165180_j15049565405380_1_alg».proof.Proof.Gen.KernelIdeal.Points
import proofs.«165180_j15049565405380_1_alg».proof.Proof.Gen.KernelIdeal.Frame
import proofs.«165180_j15049565405380_1_alg».proof.Proof.Gen.ReferenceIdeal
import proofs.«165180_j15049565405380_1_alg».proof.Proof.Gen.Pre_finite_inputs
import proofs.«165180_j15049565405380_1_alg».proof.Proof.Gen.KernelIdeal.Value
import proofs.«165180_j15049565405380_1_alg».proof.Proof.Gen.ReferenceIdeal.Run
import proofs.«165180_j15049565405380_1_alg».proof.Proof.Gen.ReferenceIdeal.Read
import proofs.«165180_j15049565405380_1_alg».proof.Proof.RefIsSpec
import proofs.«165180_j15049565405380_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories that agree on the arguments, the kernel's result array ends at the network applied to every row of X
    (the blocks it writes tile the array), and the reference's at the same network read off its operations: one
    function of the arguments. -/
theorem algebraic : Cert.algebraic_KernelIdeal_ReferenceIdeal := by
  intro m ρ m' ρ' _ hagree
  refine ⟨fun c => Cert.Mlp.Kernel.result m c, Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Mlp.Ref.result_eq, (hagree c).1, (hagree c).2.1, (hagree c).2.2.1,
    (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
